-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S8x4096x2048 : Shape := ⟨3, ![8, 4096, 2048]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8x64x64x64 .f32) (main_arg1 : FVec F S8x4096x2048 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  main_v8
-- ==== Kernel.lean ====
abbrev S8x64x64x64 : Shape := ⟨4, ![8, 64, 64, 64]⟩
abbrev S8x4096x2048 : Shape := ⟨3, ![8, 4096, 2048]⟩
abbrev S8x64x4096 : Shape := ⟨3, ![8, 64, 4096]⟩
abbrev S8x64x2048 : Shape := ⟨3, ![8, 64, 2048]⟩
abbrev S1x64x1024 : Shape := ⟨3, ![1, 64, 1024]⟩
abbrev S1x1024x2048 : Shape := ⟨3, ![1, 1024, 2048]⟩
abbrev S1x64x2048 : Shape := ⟨3, ![1, 64, 2048]⟩
abbrev S64x2048 : Shape := ⟨2, ![64, 2048]⟩
abbrev S1x2048 : Shape := ⟨2, ![1, 2048]⟩
abbrev S64x1024 : Shape := ⟨2, ![64, 1024]⟩
abbrev S1024x2048 : Shape := ⟨2, ![1024, 2048]⟩
abbrev S2048 : Shape := ⟨1, ![2048]⟩
abbrev S8x2048x64 : Shape := ⟨3, ![8, 2048, 64]⟩

abbrev nBuf : Space → Nat
  | .hbm => 5
  | .vmem => 8
  | .smem => 0
  | _ => 0

abbrev bufTy : (tb : Table) → Fin (tcTables nBuf tb) → BufTy
  | .hbm, ⟨0, _⟩ => ⟨S8x64x64x64, .f32⟩
  | .hbm, ⟨1, _⟩ => ⟨S8x4096x2048, .f32⟩
  | .hbm, ⟨2, _⟩ => ⟨S8x64x4096, .f32⟩
  | .hbm, ⟨3, _⟩ => ⟨S8x64x2048, .f32⟩
  | .hbm, ⟨4, _⟩ => ⟨S8x2048x64, .f32⟩
  | .local _ .vmem, ⟨0, _⟩ => ⟨S1x64x1024, .f32⟩
  | .local _ .vmem, ⟨1, _⟩ => ⟨S1x64x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x64x2048, .f32⟩
  | .local _ .vmem, ⟨5, _⟩ => ⟨S1x64x2048, .f32⟩
  | .local _ .vmem, ⟨6, _⟩ => ⟨S64x2048, .f32⟩
  | .local _ .vmem, ⟨7, _⟩ => ⟨S1x2048, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x64x64x64_S8x64x4096 : S8x64x64x64.ShapeCasts S8x64x4096
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S2048 : S1024x2048.Reduces [0] S2048
  shapeCasts_S2048_S1x2048 : S2048.ShapeCasts S1x2048
  bitsLt_bf16_f32 : FTy.bits .bf16 < FTy.bits .f32
  broadcasts_S1x2048_S64x2048 : S1x2048.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  transposes_S8x64x2048_S8x2048x64_0_2_1 : S8x64x2048.Transposes [0, 2, 1] S8x2048x64
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S8x64x4096.size a
  hwx0_0 : ∀ i : grid0.Coords, EltTy.bits .f32 = 32 ∨ (Rect.block (s := S8x64x4096) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .f32 = 32 ∨ (Rect.block (s := S8x4096x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S8x64x2048.size a
  hwx0_2 : ∀ i : grid0.Coords, EltTy.bits .f32 = 32 ∨ (Rect.block (s := S8x64x2048) S1x64x2048.size (cc0_transform_2 i) (hinb0_2 i)).WholeWords (EltTy.packing .f32)

variable [Facts₀]

def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x64x64x64 : Shape := ⟨4, ![8, 64, 64, 64]⟩
abbrev S8x4096x2048 : Shape := ⟨3, ![8, 4096, 2048]⟩
abbrev S8x64x4096 : Shape := ⟨3, ![8, 64, 4096]⟩
abbrev S_ : Shape := ⟨0, ![]⟩
abbrev S8x2048 : Shape := ⟨2, ![8, 2048]⟩
abbrev S8x64x2048 : Shape := ⟨3, ![8, 64, 2048]⟩
abbrev S8x1x2048 : Shape := ⟨3, ![8, 1, 2048]⟩
abbrev S8x2048x64 : Shape := ⟨3, ![8, 2048, 64]⟩

abbrev nBuf : Space → Nat
  | .hbm => 13
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S8x4096x2048, .f32⟩
  | .hbm, ⟨2, _⟩ => ⟨S8x64x4096, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x64x2048, .f32⟩
  | .hbm, ⟨9, _⟩ => ⟨S8x1x2048, .f32⟩
  | .hbm, ⟨10, _⟩ => ⟨S8x64x2048, .f32⟩
  | .hbm, ⟨11, _⟩ => ⟨S8x64x2048, .f32⟩
  | .hbm, ⟨12, _⟩ => ⟨S8x2048x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S8x64x64x64_S8x64x4096 : S8x64x64x64.ShapeCasts S8x64x4096
  reducesTo_S8x4096x2048_S8x2048_d1 : S8x4096x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x64x2048_0_1_2 : S8x1x2048.BroadcastsInDim S8x64x2048 (![0, 1, 2] : Fin 3 → Fin S8x64x2048.rank)
  transposes_S8x64x2048_S8x2048x64_0_2_1 : S8x64x2048.Transposes [0, 2, 1] S8x2048x64
  dot_S8x64x4096_S8x4096x2048_S8x64x2048_2_1_1_2_0_0_wf : DotDims.WF S8x64x4096 S8x4096x2048 S8x64x2048 [2] [1] [1] [2] [0] [0]

variable [Facts₀]

def dot_S8x64x4096_S8x4096x2048_S8x64x2048_2_1_1_2_0_0 : DotDims S8x64x4096 S8x4096x2048 S8x64x2048 where
  lhsContracting := [2]
  rhsContracting := [1]
  lhsNonContracting := [1]
  rhsNonContracting := [2]
  lhsBatch := [0]
  rhsBatch := [0]
  wf := dot_S8x64x4096_S8x4096x2048_S8x64x2048_2_1_1_2_0_0_wf

class Facts : Prop extends Facts₀ where

variable [Facts]
-- ==== Proof.Pieces.lean ====
/-
  What one run of the kernel body leaves behind, read back as values.

  The body keeps two running totals in scratch memory: a 64 x 2048 block of partial products (one row per channel, one
  column per knowledge-graph node) and a 1 x 2048 row of partial degrees.  At a grid point it receives one 64 x 1024 tile
  `x` of node features and one 1024 x 2048 tile `a` of the adjacency, and

    * at the first tile of a batch it clears both totals and then adds the tile's contribution: the totals end as
      `0 + x a` and `0 + colsum a`;
    * at a middle tile it adds the contribution to what the tile before left: `P + x a` and `d + colsum a`;
    * at the last tile it does the same and then writes the quotient `(P + x a) / max (d + colsum a, 1)` to the output
      block.

  Each statement below says exactly this about the stores the symbolic run found, for any float instance: the stored
  value is the body's arithmetic applied to the tiles and to the totals found in scratch.
-/
import proofs.«142397_j57664230916656_2_alg».proof.Proof.Gen.KernelIdeal.Frame
import Idealize.ShloMosaic.Lib.Pipeline.Value
import Idealize.ShloMosaic.Lib.Tactic

set_option maxRecDepth 16384

noncomputable section

namespace Cert.KernelIdeal.Found

open Idealize.ShloMosaic Idealize.ShloMosaic.TcCoe Idealize.ShloMosaic.Tactic Idealize.SL.Sem
open Cert.KernelIdeal Cert.KernelIdeal.Gen

variable {F : FTy → Type} [FloatOps F]

/-- Every load and store of the body starts at the origin of its buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## First tile of a batch: the totals are cleared, then the tile is added -/

/-- The partial products after the first tile: the tile's product added to the cleared block. -/
theorem acc_A (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : cond0_0 i) (hc1 : ¬cond0_1 i)
    (x0 : Vec F S1x64x1024 .f32) (x1 : Vec F S1x1024x2048 .f32) :
    sout0_A_0 c i arg2 harg2 arg3 harg3 arg4 harg4 arg5 harg5 arg6 harg6 hc0 hc1 x0 x1 = k0_pay5 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S64x2048) hz2]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

/-- The partial degrees after the first tile: the tile's column sums added to the cleared row. -/
theorem deg_A (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : cond0_0 i) (hc1 : ¬cond0_1 i)
    (x0 : Vec F S1x64x1024 .f32) (x1 : Vec F S1x1024x2048 .f32) :
    sout0_A_1 c i arg2 harg2 arg3 harg3 arg4 harg4 arg5 harg5 arg6 harg6 hc0 hc1 x0 x1 = k0_pay4 x1 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x2048) hz2]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

/-! ## A middle tile: the tile is added to the totals found -/

/-- The partial products after a middle tile. -/
theorem acc_B (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : ¬cond0_0 i) (hc1 : ¬cond0_1 i)
    (x0 : Vec F S1x64x1024 .f32) (x1 : Vec F S1x1024x2048 .f32) (xs0 : Vec F S64x2048 .f32) (xs1 : Vec F S1x2048 .f32) :
    sout0_B_0 c i arg2 harg2 arg3 harg3 arg4 harg4 arg5 harg5 arg6 harg6 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hz2]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

/-- The partial degrees after a middle tile. -/
theorem deg_B (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : ¬cond0_0 i) (hc1 : ¬cond0_1 i)
    (x0 : Vec F S1x64x1024 .f32) (x1 : Vec F S1x1024x2048 .f32) (xs0 : Vec F S64x2048 .f32) (xs1 : Vec F S1x2048 .f32) :
    sout0_B_1 c i arg2 harg2 arg3 harg3 arg4 harg4 arg5 harg5 arg6 harg6 hc0 hc1 x0 x1 xs0 xs1 = k0_pay4 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  rw [View.canon_unit_zero hz2]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

/-! ## The last tile: the tile is added, and the quotient is written out -/

/-- The partial products after the last tile. -/
theorem acc_C (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : ¬cond0_0 i) (hc1 : cond0_1 i)
    (x0 : Vec F S1x64x1024 .f32) (x1 : Vec F S1x1024x2048 .f32) (xs0 : Vec F S64x2048 .f32) (xs1 : Vec F S1x2048 .f32) :
    sout0_C_0 c i arg2 harg2 arg3 harg3 arg4 harg4 arg5 harg5 arg6 harg6 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

/-- The partial degrees after the last tile. -/
theorem deg_C (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : ¬cond0_0 i) (hc1 : cond0_1 i)
    (x0 : Vec F S1x64x1024 .f32) (x1 : Vec F S1x1024x2048 .f32) (xs0 : Vec F S64x2048 .f32) (xs1 : Vec F S1x2048 .f32) :
    sout0_C_1 c i arg2 harg2 arg3 harg3 arg4 harg4 arg5 harg5 arg6 harg6 hc0 hc1 x0 x1 xs0 xs1 = k0_pay4 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

/-- The output block the last tile writes: the completed products over the completed degrees clamped below by one. -/
theorem out_C (c : Dev nD) (i : grid0.Coords) (arg2 : Memref sig .tc .vmem S1x64x1024 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S64x2048 .f32) (harg5 : arg5.IsWhole) (arg6 : Memref sig .tc .vmem S1x2048 .f32) (harg6 : arg6.IsWhole) (hc0 : ¬cond0_0 i) (hc1 : cond0_1 i)
    (x0 : Vec F S1x64x1024 .f32) (x1 : Vec F S1x1024x2048 .f32) (xs0 : Vec F S64x2048 .f32) (xs1 : Vec F S1x2048 .f32) :
    out0_C_2 c i arg2 harg2 arg3 harg3 arg4 harg4 arg5 harg5 arg6 harg6 hc0 hc1 x0 x1 xs0 xs1 = k0_pay6 (k0_pay4 x1 xs1) (k0_pay5 x0 x1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3]
  simp only [View.readCov_unit_zero (S := S64x2048) _ hz2, View.readCov_unit_zero (S := S1x2048) _ hz2, View.readAt_eq_ld, harg2.read_unread, harg3.read_unread, harg5.read_unread, harg6.read_unread, View.ld_unit_zero (S := S1x64x1024) hz3, View.ld_unit_zero (S := S1x1024x2048) hz3, View.ld_unit_zero (S := S64x2048) hz2, View.ld_unit_zero (S := S1x2048) hz2]

end Cert.KernelIdeal.Found

end
-- ==== Proof.Steps.lean ====
/-
  The running totals, point by point.

  After the body at grid point `t` the scratch holds, in terms of the point's two tiles `x`, `a` and of what the
  point before left:

    * first point of a batch (`t % 4 = 0`):   products `0 + x a`,        degrees `0 + colsum a`;
    * any later point of the batch:            products `P + x a`,        degrees `d + colsum a`;
    * and at the batch's last point (`t % 4 = 3`) the output block is the new products over the new degrees
      clamped below by one.

  These are the per-case readings of the stores the run found, placed at the point's own tiles and staging
  buffers; they hold at any float instance.
-/
import proofs.«142397_j57664230916656_2_alg».proof.Proof.Pieces

noncomputable section

namespace Cert.KernelIdeal.Steps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Products after the first point of a batch. -/
theorem first_acc (c : Dev nD) (t : Fin cfg0.N) (h0 : t.val % 4 = 0) (h1 : ¬t.val % 4 = 3) :
    (outsAt0 m c t.val t.isLt).2.1 = k0_pay5 (iblk m c 0 t) (iblk m c 1 t) k0_pay1 := by
  rw [outsAt0_A m c t h0 h1]
  dsimp only
  exact Found.acc_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- Degrees after the first point of a batch. -/
theorem first_deg (c : Dev nD) (t : Fin cfg0.N) (h0 : t.val % 4 = 0) (h1 : ¬t.val % 4 = 3) :
    (outsAt0 m c t.val t.isLt).2.2 = k0_pay4 (iblk m c 1 t) k0_pay2 := by
  rw [outsAt0_A m c t h0 h1]
  dsimp only
  exact Found.deg_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- Products after a middle point. -/
theorem mid_acc (c : Dev nD) (t : Fin cfg0.N) (h0 : ¬t.val % 4 = 0) (h1 : ¬t.val % 4 = 3) :
    (outsAt0 m c t.val t.isLt).2.1 = k0_pay5 (iblk m c 0 t) (iblk m c 1 t) (outsAt0 m c (t.val - 1) (Nat.lt_of_le_of_lt (Nat.sub_le _ _) t.isLt)).2.1 := by
  rw [outsAt0_B m c t h0 h1]
  dsimp only
  exact Found.acc_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- Degrees after a middle point. -/
theorem mid_deg (c : Dev nD) (t : Fin cfg0.N) (h0 : ¬t.val % 4 = 0) (h1 : ¬t.val % 4 = 3) :
    (outsAt0 m c t.val t.isLt).2.2 = k0_pay4 (iblk m c 1 t) (outsAt0 m c (t.val - 1) (Nat.lt_of_le_of_lt (Nat.sub_le _ _) t.isLt)).2.2 := by
  rw [outsAt0_B m c t h0 h1]
  dsimp only
  exact Found.deg_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- Products after the last point of a batch. -/
theorem last_acc (c : Dev nD) (t : Fin cfg0.N) (h0 : ¬t.val % 4 = 0) (h1 : t.val % 4 = 3) :
    (outsAt0 m c t.val t.isLt).2.1 = k0_pay5 (iblk m c 0 t) (iblk m c 1 t) (outsAt0 m c (t.val - 1) (Nat.lt_of_le_of_lt (Nat.sub_le _ _) t.isLt)).2.1 := by
  rw [outsAt0_C m c t h0 h1]
  dsimp only
  exact Found.acc_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- Degrees after the last point of a batch. -/
theorem last_deg (c : Dev nD) (t : Fin cfg0.N) (h0 : ¬t.val % 4 = 0) (h1 : t.val % 4 = 3) :
    (outsAt0 m c t.val t.isLt).2.2 = k0_pay4 (iblk m c 1 t) (outsAt0 m c (t.val - 1) (Nat.lt_of_le_of_lt (Nat.sub_le _ _) t.isLt)).2.2 := by
  rw [outsAt0_C m c t h0 h1]
  dsimp only
  exact Found.deg_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- The output block after the last point of a batch: that point's own products over its own degrees. -/
theorem last_out (c : Dev nD) (t : Fin cfg0.N) (h0 : ¬t.val % 4 = 0) (h1 : t.val % 4 = 3) :
    (outsAt0 m c t.val t.isLt).1 = k0_pay6 (outsAt0 m c t.val t.isLt).2.2 (outsAt0 m c t.val t.isLt).2.1 := by
  rw [last_acc m c t h0 h1, last_deg m c t h0 h1, outsAt0_C m c t h0 h1]
  dsimp only
  exact Found.out_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.PayloadAt.lean ====
/-
  The body's arithmetic read at one entry, on the extended reals.

  With `x` the 64 x 1024 tile of node features, `a` the 1024 x 2048 tile of the adjacency, `P` the partial products and
  `d` the partial degrees found in scratch:

    * a cleared total is 0 at every entry;
    * the new partial degree of node `m` is `d[m] + ∑ₖ a[k, m]` (the tile's column sum; a change of float format is
      the identity here, so the column sum is taken of the very entries that are multiplied below);
    * the new partial product at `(c, m)` is `P[c, m] + ∑ₖ x[c, k] · a[k, m]` (the matrix product into a zero accumulator
      is the plain sum of products);
    * the output at `(c, m)` is `P[c, m] / max (d[m], 1)`, one row of degrees serving all 64 channels.
-/
import proofs.«142397_j57664230916656_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.TcCoe Idealize.ShloMosaic.ValueIdx
open Cert.KernelIdeal Cert.KernelIdeal.Gen

/-- A cleared block of partial products is zero everywhere. -/
theorem cleared_acc (c : Fin 64) (m : Fin 2048) : k0_pay1 (F := Ideal) (ix2 c m) = 0 := by
  unfold k0_pay1
  rw [shapeCast_self]
  exact Ideal.ofBits_zero_f32

/-- A cleared row of partial degrees is zero everywhere. -/
theorem cleared_deg (u : Fin 1) (m : Fin 2048) : k0_pay2 (F := Ideal) (ix2 u m) = 0 := by
  unfold k0_pay2
  rw [shapeCast_self]
  exact Ideal.ofBits_zero_f32

/-- Column `m` of the tile summed over its 1024 rows. -/
theorem colsum_apply (a : Vec Ideal S1x1024x2048 .f32) (hφ : FKind.Formats .f32)
    (hacc : (0x00000000#32 : BitVec 32) = FKind.add.neutral .f32 hφ) (u : Fin 1) (m : Fin 2048) :
    shapeCast S1x2048 (multiReduction (F := Ideal) .add [0] S2048 (k0_pay3 a) 0x00000000#32 reduces_S1024x2048_S2048 hφ hacc)
        shapeCasts_S2048_S1x2048 (ix2 u m)
      = ∑ k : Fin 1024, a (ix3 (0 : Fin 1) k m) := by
  refine (shapeCast_a_1a_apply _ _ u m).trans ?_
  refine (Ideal.multiReduction_add_single (k0_pay3 a) 0x00000000#32 reduces_S1024x2048_S2048 hφ hacc (ix1 m)).trans ?_
  refine Finset.sum_congr rfl fun k _ => ?_
  have e : reduces_S1024x2048_S2048.lift (ix1 m) k = ix2 k m :=
    funext fun d => Fin.ext (by match d with | ⟨0, _⟩ => rfl | ⟨1, _⟩ => rfl)
  rw [e]
  unfold k0_pay3
  exact shapeCast_1ab_ab_apply a _ k m

/-- The new partial degree: the old one plus the tile's column sum. -/
theorem deg_step (a : Vec Ideal S1x1024x2048 .f32) (d : Vec Ideal S1x2048 .f32) (u : Fin 1) (m : Fin 2048) :
    k0_pay4 a d (ix2 u m) = d (ix2 u m) + ∑ k : Fin 1024, a (ix3 (0 : Fin 1) k m) := by
  unfold k0_pay4
  rw [shapeCast_self]
  exact congrArg (d (ix2 u m) + ·) (colsum_apply a _ _ u m)

/-- Row coordinate of the left factor: the output's row. -/
theorem lhs_row (i : S64x2048.Idx) (q : dot_S64x1024_S1024x2048_S64x2048_1_0_0_1_n_n.contr.Idx) : (dot_S64x1024_S1024x2048_S64x2048_1_0_0_1_n_n.lhsIdx i q 0).val = (i 0).val := by
  unfold DotDims.lhsIdx
  rw [dif_neg (show ¬(0 : Fin S64x1024.rank) ∈ dot_S64x1024_S1024x2048_S64x2048_1_0_0_1_n_n.lhsBatch by decide),
    dif_pos (show (0 : Fin S64x1024.rank) ∈ dot_S64x1024_S1024x2048_S64x2048_1_0_0_1_n_n.lhsNonContracting by decide)]
  rfl
/-- Column coordinate of the left factor: the summation index. -/
theorem lhs_col (i : S64x2048.Idx) (q : dot_S64x1024_S1024x2048_S64x2048_1_0_0_1_n_n.contr.Idx) : (dot_S64x1024_S1024x2048_S64x2048_1_0_0_1_n_n.lhsIdx i q 1).val = (q ⟨0, by decide⟩).val :=
  dot_S64x1024_S1024x2048_S64x2048_1_0_0_1_n_n.lhsIdx_val_of_single rfl i q
/-- Row coordinate of the right factor: the summation index. -/
theorem rhs_row (i : S64x2048.Idx) (q : dot_S64x1024_S1024x2048_S64x2048_1_0_0_1_n_n.contr.Idx) : (dot_S64x1024_S1024x2048_S64x2048_1_0_0_1_n_n.rhsIdx i q 0).val = (q ⟨0, by decide⟩).val :=
  dot_S64x1024_S1024x2048_S64x2048_1_0_0_1_n_n.rhsIdx_val_of_single rfl i q
/-- Column coordinate of the right factor: the output's column. -/
theorem rhs_col (i : S64x2048.Idx) (q : dot_S64x1024_S1024x2048_S64x2048_1_0_0_1_n_n.contr.Idx) : (dot_S64x1024_S1024x2048_S64x2048_1_0_0_1_n_n.rhsIdx i q 1).val = (i 1).val := by
  unfold DotDims.rhsIdx
  rw [dif_neg (show ¬(1 : Fin S1024x2048.rank) ∈ dot_S64x1024_S1024x2048_S64x2048_1_0_0_1_n_n.rhsBatch by decide),
    dif_pos (show (1 : Fin S1024x2048.rank) ∈ dot_S64x1024_S1024x2048_S64x2048_1_0_0_1_n_n.rhsNonContracting by decide)]
  rfl

/-- The tile product at `(c, m)`: the sum over the tile's 1024 nodes. -/
theorem tileprod_apply (x : Vec Ideal S1x64x1024 .f32) (a : Vec Ideal S1x1024x2048 .f32) (c : Fin 64) (m : Fin 2048) :
    matmul (F := Ideal) dot_S64x1024_S1024x2048_S64x2048_1_0_0_1_n_n none
        (truncf .bf16 (shapeCast S64x1024 x shapeCasts_S1x64x1024_S64x1024) bitsLt_bf16_f32)
        (truncf .bf16 (k0_pay3 a) bitsLt_bf16_f32) (constant S64x2048 .f32 0x00000000#32) (ix2 c m)
      = ∑ k : Fin 1024, x (ix3 (0 : Fin 1) c k) * a (ix3 (0 : Fin 1) k m) := by
  refine (Ideal.matmul_constant_zero_apply dot_S64x1024_S1024x2048_S64x2048_1_0_0_1_n_n none _ _ (ix2 c m)).trans ?_
  rw [← Equiv.sum_comp (ValueIdx.contrEquiv1 dot_S64x1024_S1024x2048_S64x2048_1_0_0_1_n_n 1024 rfl rfl).symm]
  refine Finset.sum_congr rfl fun k _ => ?_
  have hk := ValueIdx.contrEquiv1_symm_val dot_S64x1024_S1024x2048_S64x2048_1_0_0_1_n_n 1024 rfl rfl k
  have el : dot_S64x1024_S1024x2048_S64x2048_1_0_0_1_n_n.lhsIdx (ix2 c m) ((ValueIdx.contrEquiv1 dot_S64x1024_S1024x2048_S64x2048_1_0_0_1_n_n 1024 rfl rfl).symm k) = ix2 c k :=
    funext fun d => Fin.ext (by
      match d with
      | ⟨0, _⟩ => exact lhs_row _ _
      | ⟨1, _⟩ => exact (lhs_col _ _).trans hk)
  have er : dot_S64x1024_S1024x2048_S64x2048_1_0_0_1_n_n.rhsIdx (ix2 c m) ((ValueIdx.contrEquiv1 dot_S64x1024_S1024x2048_S64x2048_1_0_0_1_n_n 1024 rfl rfl).symm k) = ix2 k m :=
    funext fun d => Fin.ext (by
      match d with
      | ⟨0, _⟩ => exact (rhs_row _ _).trans hk
      | ⟨1, _⟩ => exact rhs_col _ _)
  rw [el, er]
  unfold k0_pay3
  rw [truncf_apply, truncf_apply]
  exact congrArg₂ (· * ·) (shapeCast_1ab_ab_apply x _ c k) (shapeCast_1ab_ab_apply a _ k m)

/-- The new partial product: the old one plus the tile product. -/
theorem acc_step (x : Vec Ideal S1x64x1024 .f32) (a : Vec Ideal S1x1024x2048 .f32) (P : Vec Ideal S64x2048 .f32)
    (c : Fin 64) (m : Fin 2048) :
    k0_pay5 x a P (ix2 c m) = P (ix2 c m) + ∑ k : Fin 1024, x (ix3 (0 : Fin 1) c k) * a (ix3 (0 : Fin 1) k m) := by
  unfold k0_pay5
  rw [shapeCast_self]
  exact congrArg (P (ix2 c m) + ·) (tileprod_apply x a c m)

/-- The output entry: the product over the degree clamped below by one. -/
theorem out_apply (d : Vec Ideal S1x2048 .f32) (P : Vec Ideal S64x2048 .f32) (u : Fin 1) (c : Fin 64) (m : Fin 2048) :
    k0_pay6 d P (ix3 u c m)
      = Ideal.div (P (ix2 c m)) (max (d (ix2 (0 : Fin 1) m)) (Ideal.ofBits .f32 0x3F800000#32)) := by
  unfold k0_pay6
  refine (shapeCast_ab_1ab_apply _ _ u c m).trans ?_
  rw [divf_apply]
  exact congrArg (Ideal.div (P (ix2 c m))) (broadcastTo_1b_ab_apply _ _ c m)

end Cert.KernelIdeal.Body

end
-- ==== Proof.Spec.lean ====
/-
  The aggregated, degree-normalised node features, as one function of the two arrays, and the arithmetic of adding it
  up 1024 nodes at a time.

  For a batch `b`, a channel `c` and a knowledge-graph node `m` the value is

      ( ∑ₙ X[b, c, n] · A[b, n, m] ) / max ( 0 + ∑ₙ A[b, n, m], 1 ),      n over the 4096 scene-graph nodes,

  on the extended reals.  A sum over the 4096 nodes taken as four consecutive runs of 1024, each run added to the total
  of the runs before it, is the same sum: addition of extended reals is commutative and associative, so no finiteness
  of the data is needed for this.
-/
import Idealize.ShloMosaic.PureOps.Ideal.Laws
import Idealize.ShloMosaic.Lib.ValueIdx

noncomputable section

namespace Cert.Spec

open Idealize.ShloMosaic Idealize.ShloMosaic.ValueIdx

/-! ## Sums taken 1024 terms at a time -/

/-- The sum of the first `1024 · j` terms of a sequence: a running total after `j` runs of 1024. -/
def psum (f : ℕ → EReal) (j : ℕ) : EReal := ∑ q ∈ Finset.range (1024 * j), f q

/-- Before any run the total is zero. -/
theorem psum_zero (f : ℕ → EReal) : psum f 0 = 0 := by
  unfold psum
  rw [Nat.mul_zero, Finset.range_zero, Finset.sum_empty]

/-- One more run adds its 1024 terms to the total. -/
theorem psum_succ (f : ℕ → EReal) (j : ℕ) :
    psum f (j + 1) = psum f j + ∑ k : Fin 1024, f (1024 * j + k.val) := by
  unfold psum
  rw [Nat.mul_succ, Finset.sum_range_add, Finset.sum_range (fun x => f (1024 * j + x))]

/-- Four runs are all 4096 terms. -/
theorem psum_four (f : ℕ → EReal) : psum f 4 = ∑ q : Fin 4096, f q.val := by
  unfold psum
  rw [show 1024 * 4 = 4096 from rfl, Finset.sum_range]

/-! ## The two arrays and the result -/

/-- The node features as the kernel and the reference both use them: batch × channel × scene-graph node. -/
abbrev SX : Shape := ⟨3, ![8, 64, 4096]⟩
/-- The adjacency: batch × scene-graph node × knowledge-graph node. -/
abbrev SA : Shape := ⟨3, ![8, 4096, 2048]⟩
/-- The result before the final swap of its last two axes: batch × channel × knowledge-graph node. -/
abbrev SO : Shape := ⟨3, ![8, 64, 2048]⟩

/-- Scene-graph node `q`'s contribution to the product at `(b, c, m)`; nothing beyond the 4096 nodes. -/
def prodTerm (X : SX.Idx → EReal) (A : SA.Idx → EReal) (b : Fin 8) (c : Fin 64) (m : Fin 2048) (q : ℕ) : EReal :=
  if h : q < 4096 then X (ix3 b c ⟨q, h⟩) * A (ix3 b ⟨q, h⟩ m) else 0

/-- Scene-graph node `q`'s contribution to the degree of knowledge-graph node `m` in batch `b`. -/
def degTerm (A : SA.Idx → EReal) (b : Fin 8) (m : Fin 2048) (q : ℕ) : EReal :=
  if h : q < 4096 then A (ix3 b ⟨q, h⟩ m) else 0

theorem prodTerm_of_lt (X : SX.Idx → EReal) (A : SA.Idx → EReal) (b : Fin 8) (c : Fin 64) (m : Fin 2048) (q : ℕ)
    (h : q < 4096) : prodTerm X A b c m q = X (ix3 b c ⟨q, h⟩) * A (ix3 b ⟨q, h⟩ m) := dif_pos h

theorem degTerm_of_lt (A : SA.Idx → EReal) (b : Fin 8) (m : Fin 2048) (q : ℕ) (h : q < 4096) :
    degTerm A b m q = A (ix3 b ⟨q, h⟩ m) := dif_pos h

/-- The whole product: all four runs. -/
theorem psum_prodTerm_four (X : SX.Idx → EReal) (A : SA.Idx → EReal) (b : Fin 8) (c : Fin 64) (m : Fin 2048) :
    psum (prodTerm X A b c m) 4 = ∑ n : Fin 4096, X (ix3 b c n) * A (ix3 b n m) := by
  rw [psum_four]
  exact Finset.sum_congr rfl fun n _ => prodTerm_of_lt X A b c m n.val n.isLt

/-- The whole degree: all four runs. -/
theorem psum_degTerm_four (A : SA.Idx → EReal) (b : Fin 8) (m : Fin 2048) :
    psum (degTerm A b m) 4 = ∑ n : Fin 4096, A (ix3 b n m) := by
  rw [psum_four]
  exact Finset.sum_congr rfl fun n _ => degTerm_of_lt A b m n.val n.isLt

/-- The float word of 1.0, the floor under the degree.  It is the same word in both programs and is never evaluated. -/
abbrev oneWord : EReal := Ideal.ofBits .f32 0x3F800000#32

/-- THE RESULT before the final swap of axes: the product over the clamped degree. -/
def pooled (X : SX.Idx → EReal) (A : SA.Idx → EReal) : SO.Idx → EReal := fun y =>
  Ideal.div (∑ n : Fin 4096, X (ix3 (y 0) (y 1) n) * A (ix3 (y 0) n (y 2)))
    (max (0 + ∑ n : Fin 4096, A (ix3 (y 0) n (y 2))) oneWord)

theorem pooled_apply (X : SX.Idx → EReal) (A : SA.Idx → EReal) (b : Fin 8) (c : Fin 64) (m : Fin 2048) :
    pooled X A (ix3 b c m) = Ideal.div (∑ n : Fin 4096, X (ix3 b c n) * A (ix3 b n m))
      (max (0 + ∑ n : Fin 4096, A (ix3 b n m)) oneWord) := rfl

end Cert.Spec

end
-- ==== Proof.TileStep.lean ====
/-
  One tile's contribution, in terms of the whole arrays.

  If `x` and `a` are the tiles of the node features `X` and of the adjacency `A` for batch `b` and node run `r`
  (nodes `1024 r … 1024 r + 1023`), then adding the tile to the running totals adds exactly that run's 1024 terms of
  the product ∑ X[b, c, q] · A[b, q, m] and of the degree ∑ A[b, q, m].
-/
import proofs.«142397_j57664230916656_2_alg».proof.Proof.PayloadAt
import proofs.«142397_j57664230916656_2_alg».proof.Proof.Spec

noncomputable section

namespace Cert.KernelIdeal.Body

open Idealize.ShloMosaic Idealize.ShloMosaic.TcCoe Idealize.ShloMosaic.ValueIdx
open Cert.KernelIdeal Cert.KernelIdeal.Gen Cert.Spec

/-- The new partial product is the old one plus run `r`'s terms of the product. -/
theorem acc_tile (X : SX.Idx → EReal) (A : SA.Idx → EReal) (b : Fin 8) (r : ℕ) (hr : r < 4)
    (x : Vec Ideal S1x64x1024 .f32) (a : Vec Ideal S1x1024x2048 .f32)
    (hx : ∀ (ch : Fin 64) (k : Fin 1024) (n : Fin 4096), n.val = 1024 * r + k.val → x (ix3 (0 : Fin 1) ch k) = X (ix3 b ch n))
    (ha : ∀ (k : Fin 1024) (j : Fin 2048) (n : Fin 4096), n.val = 1024 * r + k.val → a (ix3 (0 : Fin 1) k j) = A (ix3 b n j))
    (P : Vec Ideal S64x2048 .f32) (ch : Fin 64) (j : Fin 2048) :
    k0_pay5 x a P (ix2 ch j) = P (ix2 ch j) + ∑ k : Fin 1024, prodTerm X A b ch j (1024 * r + k.val) := by
  rw [acc_step]
  refine congrArg (P (ix2 ch j) + ·) (Finset.sum_congr rfl fun k _ => ?_)
  have hn : 1024 * r + k.val < 4096 := by have := k.isLt; omega
  rw [hx ch k ⟨_, hn⟩ rfl, ha k j ⟨_, hn⟩ rfl, prodTerm_of_lt X A b ch j _ hn]

/-- The new partial degree is the old one plus run `r`'s terms of the degree. -/
theorem deg_tile (A : SA.Idx → EReal) (b : Fin 8) (r : ℕ) (hr : r < 4) (a : Vec Ideal S1x1024x2048 .f32)
    (ha : ∀ (k : Fin 1024) (j : Fin 2048) (n : Fin 4096), n.val = 1024 * r + k.val → a (ix3 (0 : Fin 1) k j) = A (ix3 b n j))
    (d : Vec Ideal S1x2048 .f32) (u : Fin 1) (j : Fin 2048) :
    k0_pay4 a d (ix2 u j) = d (ix2 u j) + ∑ k : Fin 1024, degTerm A b j (1024 * r + k.val) := by
  rw [deg_step]
  refine congrArg (d (ix2 u j) + ·) (Finset.sum_congr rfl fun k _ => ?_)
  have hn : 1024 * r + k.val < 4096 := by have := k.isLt; omega
  rw [ha k j ⟨_, hn⟩ rfl, degTerm_of_lt A b j _ hn]

end Cert.KernelIdeal.Body

end
-- ==== Proof.Tiles.lean ====
/-
  Where each grid point's tiles sit in the arrays.

  The 32 grid points run batch by batch, four points per batch: point `t` works on batch `t / 4` and on the
  scene-graph nodes `1024 · (t % 4) … 1024 · (t % 4) + 1023`.  Its tile of node features is the 64 channels of those
  nodes, its tile of the adjacency is those nodes' rows, and its output block is the batch's whole 64 x 2048 slab.
-/
import proofs.«142397_j57664230916656_2_alg».proof.Proof.Gen.KernelIdeal.Frame.Runs
import Idealize.ShloMosaic.Lib.ValueIdx
import Idealize.ShloMosaic.Lib.Pipeline.Value

noncomputable section

namespace Cert.KernelIdeal.Tiles

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The block of node features at point `t`: batch `t / 4`, all channels, node tile `t % 4`. -/
theorem where_x : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- The block of the adjacency at point `t`: batch `t / 4`, node tile `t % 4`, all columns. -/
theorem where_a : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

/-- The output block at point `t`: batch `t / 4`, everything of it. -/
theorem where_o : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- An entry of the feature tile is the feature array's entry for the point's batch and the tile's node. -/
theorem xtile_apply (c : Dev nD) (t : Fin cfg0.N) (u : Fin 1) (ch : Fin 64) (k : Fin 1024) (b : Fin 8) (n : Fin 4096)
    (hb : b.val = t.val / 4) (hn : n.val = 1024 * (t.val % 4) + k.val) :
    (iblk m c 0 t : Vec F S1x64x1024 .f32) (ix3 u ch k) = V m c main_v0 (ix3 b ch n) := by
  unfold iblk
  rw [View.read_apply]
  show V m c main_v0 (((cfg0.win 0).blk t).view.emb (ix3 u ch k)) = V m c main_v0 (ix3 b ch n)
  obtain ⟨e0, e1, e2⟩ := where_x t
  refine congrArg (V m c main_v0) (funext fun a => Fin.ext ?_)
  match a with
  | ⟨0, _⟩ => show win0_0.index t (0 : Fin 3) * 1 + 1 * u.val = b.val; omega
  | ⟨1, _⟩ => show win0_0.index t (1 : Fin 3) * 64 + 1 * ch.val = ch.val; omega
  | ⟨2, _⟩ => show win0_0.index t (2 : Fin 3) * 1024 + 1 * k.val = n.val; omega

/-- An entry of the adjacency tile is the adjacency's entry for the point's batch and the tile's node. -/
theorem atile_apply (c : Dev nD) (t : Fin cfg0.N) (u : Fin 1) (k : Fin 1024) (j : Fin 2048) (b : Fin 8) (n : Fin 4096)
    (hb : b.val = t.val / 4) (hn : n.val = 1024 * (t.val % 4) + k.val) :
    (iblk m c 1 t : Vec F S1x1024x2048 .f32) (ix3 u k j) = V m c main_arg1 (ix3 b n j) := by
  unfold iblk
  rw [View.read_apply]
  show V m c main_arg1 (((cfg0.win 1).blk t).view.emb (ix3 u k j)) = V m c main_arg1 (ix3 b n j)
  obtain ⟨e0, e1, e2⟩ := where_a t
  refine congrArg (V m c main_arg1) (funext fun a => Fin.ext ?_)
  match a with
  | ⟨0, _⟩ => show win0_1.index t (0 : Fin 3) * 1 + 1 * u.val = b.val; omega
  | ⟨1, _⟩ => show win0_1.index t (1 : Fin 3) * 1024 + 1 * k.val = n.val; omega
  | ⟨2, _⟩ => show win0_1.index t (2 : Fin 3) * 2048 + 1 * j.val = j.val; omega

end Cert.KernelIdeal.Tiles

end
-- ==== Proof.Totals.lean ====
/-
  What the scratch holds after each grid point, and what the last point of a batch writes out.

  Write `X` for the node features and `A` for the adjacency as the kernel finds them.  Point `n` belongs to batch
  `b = n / 4` and is the `(n % 4)`-th of its four tiles.  After it,

      products[c, m] = the sum of X[b, c, q] · A[b, q, m] over the first 1024 · (n % 4 + 1) nodes q,
      degrees[m]     = the sum of A[b, q, m]              over the same nodes,

  by induction on the point: the first tile of a batch starts from cleared totals, every later tile adds its 1024
  nodes to what the tile before left (the batch does not change inside a group of four).  At the batch's last tile
  all 4096 nodes are in, and the block written out is the full product over the full degree clamped below by one.
-/
import proofs.«142397_j57664230916656_2_alg».proof.Proof.Steps
import proofs.«142397_j57664230916656_2_alg».proof.Proof.TileStep
import proofs.«142397_j57664230916656_2_alg».proof.Proof.Tiles
import proofs.«142397_j57664230916656_2_alg».proof.Proof.Spec

noncomputable section

namespace Cert.KernelIdeal.Totals

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The node features as the kernel finds them (the reshaped first argument). -/
abbrev feats (c : Dev nD) : SX.Idx → EReal := V m c main_v0
/-- The adjacency as the kernel finds it (the second argument). -/
abbrev adj (c : Dev nD) : SA.Idx → EReal := V m c main_arg1

/-- The batch grid point `n` works on. -/
abbrev batchOf (n : ℕ) (h : n < cfg0.N) : Fin 8 := ⟨n / 4, by have hN : cfg0.N = 32 := N_0; omega⟩

/-! ## One point -/

/-- Products after the first tile of a batch: its 1024 nodes. -/
theorem acc_first (c : Dev nD) (t : Fin cfg0.N) (h0 : t.val % 4 = 0) (ch : Fin 64) (j : Fin 2048) :
    (outsAt0 m c t.val t.isLt).2.1 (ix2 ch j)
      = psum (prodTerm (feats m c) (adj m c) (batchOf t.val t.isLt) ch j) (t.val % 4 + 1) := by
  refine (congrFun (Steps.first_acc m c t h0 (by omega)) (ix2 ch j)).trans ?_
  refine (Body.acc_tile (feats m c) (adj m c) (batchOf t.val t.isLt) (t.val % 4) (Nat.mod_lt _ (by decide)) (iblk m c 0 t) (iblk m c 1 t)
      (fun ch k n hn => Tiles.xtile_apply m c t 0 ch k (batchOf t.val t.isLt) n rfl hn)
      (fun k j n hn => Tiles.atile_apply m c t 0 k j (batchOf t.val t.isLt) n rfl hn) (k0_pay1 (F := Ideal)) ch j).trans ?_
  rw [Body.cleared_acc, psum_succ, h0, psum_zero]

/-- Degrees after the first tile of a batch. -/
theorem deg_first (c : Dev nD) (t : Fin cfg0.N) (h0 : t.val % 4 = 0) (u : Fin 1) (j : Fin 2048) :
    (outsAt0 m c t.val t.isLt).2.2 (ix2 u j)
      = psum (degTerm (adj m c) (batchOf t.val t.isLt) j) (t.val % 4 + 1) := by
  refine (congrFun (Steps.first_deg m c t h0 (by omega)) (ix2 u j)).trans ?_
  refine (Body.deg_tile (adj m c) (batchOf t.val t.isLt) (t.val % 4) (Nat.mod_lt _ (by decide)) (iblk m c 1 t)
      (fun k j n hn => Tiles.atile_apply m c t 0 k j (batchOf t.val t.isLt) n rfl hn) (k0_pay2 (F := Ideal)) u j).trans ?_
  rw [Body.cleared_deg, psum_succ, h0, psum_zero]

/-- Products after a later tile: what the tile before left, plus this tile's 1024 nodes. -/
theorem acc_next (c : Dev nD) (t : Fin cfg0.N) (h0 : ¬t.val % 4 = 0) (ch : Fin 64) (j : Fin 2048) :
    (outsAt0 m c t.val t.isLt).2.1 (ix2 ch j)
      = (outsAt0 m c (t.val - 1) (Nat.lt_of_le_of_lt (Nat.sub_le _ _) t.isLt)).2.1 (ix2 ch j)
        + ∑ k : Fin 1024, prodTerm (feats m c) (adj m c) (batchOf t.val t.isLt) ch j (1024 * (t.val % 4) + k.val) := by
  by_cases h1 : t.val % 4 = 3
  · refine (congrFun (Steps.last_acc m c t h0 h1) (ix2 ch j)).trans ?_
    exact Body.acc_tile (feats m c) (adj m c) (batchOf t.val t.isLt) (t.val % 4) (Nat.mod_lt _ (by decide)) (iblk m c 0 t) (iblk m c 1 t)
      (fun ch k n hn => Tiles.xtile_apply m c t 0 ch k (batchOf t.val t.isLt) n rfl hn)
      (fun k j n hn => Tiles.atile_apply m c t 0 k j (batchOf t.val t.isLt) n rfl hn) (outsAt0 m c (t.val - 1) (Nat.lt_of_le_of_lt (Nat.sub_le _ _) t.isLt)).2.1 ch j
  · refine (congrFun (Steps.mid_acc m c t h0 h1) (ix2 ch j)).trans ?_
    exact Body.acc_tile (feats m c) (adj m c) (batchOf t.val t.isLt) (t.val % 4) (Nat.mod_lt _ (by decide)) (iblk m c 0 t) (iblk m c 1 t)
      (fun ch k n hn => Tiles.xtile_apply m c t 0 ch k (batchOf t.val t.isLt) n rfl hn)
      (fun k j n hn => Tiles.atile_apply m c t 0 k j (batchOf t.val t.isLt) n rfl hn) (outsAt0 m c (t.val - 1) (Nat.lt_of_le_of_lt (Nat.sub_le _ _) t.isLt)).2.1 ch j

/-- Degrees after a later tile. -/
theorem deg_next (c : Dev nD) (t : Fin cfg0.N) (h0 : ¬t.val % 4 = 0) (u : Fin 1) (j : Fin 2048) :
    (outsAt0 m c t.val t.isLt).2.2 (ix2 u j)
      = (outsAt0 m c (t.val - 1) (Nat.lt_of_le_of_lt (Nat.sub_le _ _) t.isLt)).2.2 (ix2 u j)
        + ∑ k : Fin 1024, degTerm (adj m c) (batchOf t.val t.isLt) j (1024 * (t.val % 4) + k.val) := by
  by_cases h1 : t.val % 4 = 3
  · refine (congrFun (Steps.last_deg m c t h0 h1) (ix2 u j)).trans ?_
    exact Body.deg_tile (adj m c) (batchOf t.val t.isLt) (t.val % 4) (Nat.mod_lt _ (by decide)) (iblk m c 1 t)
      (fun k j n hn => Tiles.atile_apply m c t 0 k j (batchOf t.val t.isLt) n rfl hn) (outsAt0 m c (t.val - 1) (Nat.lt_of_le_of_lt (Nat.sub_le _ _) t.isLt)).2.2 u j
  · refine (congrFun (Steps.mid_deg m c t h0 h1) (ix2 u j)).trans ?_
    exact Body.deg_tile (adj m c) (batchOf t.val t.isLt) (t.val % 4) (Nat.mod_lt _ (by decide)) (iblk m c 1 t)
      (fun k j n hn => Tiles.atile_apply m c t 0 k j (batchOf t.val t.isLt) n rfl hn) (outsAt0 m c (t.val - 1) (Nat.lt_of_le_of_lt (Nat.sub_le _ _) t.isLt)).2.2 u j

/-! ## Every point -/

/-- THE RUNNING TOTALS after point `n`: the first `n % 4 + 1` tiles of the point's batch. -/
theorem totals (c : Dev nD) : ∀ (n : ℕ) (h : n < cfg0.N),
    (∀ (ch : Fin 64) (j : Fin 2048), (outsAt0 m c n h).2.1 (ix2 ch j)
        = psum (prodTerm (feats m c) (adj m c) (batchOf n h) ch j) (n % 4 + 1))
    ∧ (∀ (u : Fin 1) (j : Fin 2048), (outsAt0 m c n h).2.2 (ix2 u j)
        = psum (degTerm (adj m c) (batchOf n h) j) (n % 4 + 1))
  | 0, h => ⟨fun ch j => acc_first m c ⟨0, h⟩ rfl ch j, fun u j => deg_first m c ⟨0, h⟩ rfl u j⟩
  | n + 1, h => by
    by_cases h0 : (n + 1) % 4 = 0
    · exact ⟨fun ch j => acc_first m c ⟨n + 1, h⟩ h0 ch j, fun u j => deg_first m c ⟨n + 1, h⟩ h0 u j⟩
    · have ih := totals c n (Nat.lt_of_succ_lt h)
      have e : (n + 1) % 4 = n % 4 + 1 := by omega
      have eb : batchOf (n + 1) h = batchOf n (Nat.lt_of_succ_lt h) := Fin.ext (by show (n + 1) / 4 = n / 4; omega)
      refine ⟨fun ch j => (acc_next m c ⟨n + 1, h⟩ h0 ch j).trans ?_, fun u j => (deg_next m c ⟨n + 1, h⟩ h0 u j).trans ?_⟩
      · show (outsAt0 m c n (Nat.lt_of_succ_lt h)).2.1 (ix2 ch j)
            + ∑ k : Fin 1024, prodTerm (feats m c) (adj m c) (batchOf (n + 1) h) ch j (1024 * ((n + 1) % 4) + k.val) = _
        rw [ih.1 ch j, psum_succ _ ((n + 1) % 4), e, eb]
      · show (outsAt0 m c n (Nat.lt_of_succ_lt h)).2.2 (ix2 u j)
            + ∑ k : Fin 1024, degTerm (adj m c) (batchOf (n + 1) h) j (1024 * ((n + 1) % 4) + k.val) = _
        rw [ih.2 u j, psum_succ _ ((n + 1) % 4), e, eb]

/-! ## What is written out -/

/-- THE OUTPUT BLOCK the last tile of a batch writes: the batch's slab of the pooled features. -/
theorem out_last (c : Dev nD) (t : Fin cfg0.N) (h3 : t.val % 4 = 3) (u : Fin 1) (ch : Fin 64) (j : Fin 2048) :
    (outsAt0 m c t.val t.isLt).1 (ix3 u ch j) = pooled (feats m c) (adj m c) (ix3 (batchOf t.val t.isLt) ch j) := by
  have h0 : ¬t.val % 4 = 0 := by omega
  have e4 : t.val % 4 + 1 = 4 := by omega
  refine (congrFun (Steps.last_out m c t h0 h3) (ix3 u ch j)).trans ?_
  refine (Body.out_apply (outsAt0 m c t.val t.isLt).2.2 (outsAt0 m c t.val t.isLt).2.1 u ch j).trans ?_
  rw [(totals m c t.val t.isLt).1 ch j, (totals m c t.val t.isLt).2 0 j, e4, psum_prodTerm_four, psum_degTerm_four,
    pooled_apply, zero_add]

end Cert.KernelIdeal.Totals

end
-- ==== Proof.KernelValue.lean ====
/-
  The kernel's run, read as a value.

  Each batch's output slab is written back exactly once, after the batch's last tile, and then holds that batch's
  slab of the pooled features; the eight slabs are the whole result array.  The node features the kernel works on are
  the first argument with its two spatial axes merged into one node axis, the adjacency is the second argument as it
  is, and after the kernel the last two axes of the result are swapped.
-/
import proofs.«142397_j57664230916656_2_alg».proof.Proof.Totals
import Idealize.ShloMosaic.Lib.StableHlo.Run

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.KernelIdeal.Totals

variable (m : (ℓ : Loc nD τ sig) → Buf (Elt Ideal) ℓ) (ρ : Dev nD → PrngReg)

/-- WHAT A BATCH'S LAST POINT WRITES BACK is that batch's slab of the pooled features. -/
theorem flushed_eq (c : Dev nD) (t : Fin cfg0.N) (hf : (cfg0.win 2).flush t = true) :
    (dats m 0 c).flushed 2 t = ((cfg0.win 2).blk t).view.read (Elt Ideal) (pooled (feats m c) (adj m c)) := by
  have h3 : t.val % 4 = 3 := (flush0_2 t).mp hf
  show (cfg0.win 2).cut (grid0.coords t) ((dats m 0 c).after 2 t) = _
  rw [after0_2]
  refine funext fun (y : S1x64x2048.Idx) => ?_
  obtain ⟨u, ch, j, rfl⟩ : ∃ (u : Fin 1) (ch : Fin 64) (j : Fin 2048), y = ix3 u ch j := ⟨y 0, y 1, y 2, eq_ix3 y⟩
  show (outsAt0 m c t.val t.isLt).1 (ix3 u ch j)
    = pooled (feats m c) (adj m c) (((cfg0.win 2).blk t).view.emb (ix3 u ch j))
  have e : ((cfg0.win 2).blk t).view.emb (ix3 u ch j) = ix3 (batchOf t.val t.isLt) ch j := by
    obtain ⟨e0, e1, e2⟩ := Tiles.where_o t
    refine funext fun a => Fin.ext ?_
    match a with
    | ⟨0, _⟩ => show win0_2.index t (0 : Fin 3) * 1 + 1 * u.val = t.val / 4; omega
    | ⟨1, _⟩ => show win0_2.index t (1 : Fin 3) * 64 + 1 * ch.val = ch.val; omega
    | ⟨2, _⟩ => show win0_2.index t (2 : Fin 3) * 2048 + 1 * j.val = j.val; omega
  rw [e]
  exact out_last m c t h3 u ch j

/-- An entry of the result array lies in point `t`'s block when each coordinate is in the block's range. -/
theorem mem_blk (t : Fin cfg0.N) (i : S8x64x2048.Idx) :
    i ∈ ((cfg0.win 2).blk t).view.set ↔ ∀ a : Fin 3, win0_2.index t a * S1x64x2048.size a ≤ (i a).val
      ∧ (i a).val < win0_2.index t a * S1x64x2048.size a + S1x64x2048.size a := by
  show i ∈ ((View.whole main_v1).slice (win0_2.rect t)).set ↔ _
  rw [View.set_slice_whole, Rect.mem_set_unit]
  exact Iff.rfl

/-- Every entry of the result array is written back: batch `b`'s slab by the batch's last point, `4 b + 3`. -/
theorem covered (i : S8x64x2048.Idx) :
    ∃ t : Fin cfg0.N, (cfg0.win 2).flush t = true ∧ i ∈ ((cfg0.win 2).blk t).view.set := by
  have hN : cfg0.N = 32 := N_0
  have hi0 : (i 0).val < 8 := (i 0).isLt
  have hi1 : (i 1).val < 64 := (i 1).isLt
  have hi2 : (i 2).val < 2048 := (i 2).isLt
  have ht : 4 * (i 0).val + 3 < cfg0.N := by omega
  refine ⟨⟨4 * (i 0).val + 3, ht⟩, (flush0_2 _).mpr (by show (4 * (i 0).val + 3) % 4 = 3; omega), ?_⟩
  rw [mem_blk]
  obtain ⟨e0, e1, e2⟩ := Tiles.where_o ⟨4 * (i 0).val + 3, ht⟩
  have ev : (⟨4 * (i 0).val + 3, ht⟩ : Fin cfg0.N).val = 4 * (i 0).val + 3 := rfl
  intro a
  match a with
  | ⟨0, _⟩ =>
    show win0_2.index ⟨4 * (i 0).val + 3, ht⟩ (0 : Fin 3) * 1 ≤ (i 0).val
      ∧ (i 0).val < win0_2.index ⟨4 * (i 0).val + 3, ht⟩ (0 : Fin 3) * 1 + 1
    omega
  | ⟨1, _⟩ =>
    show win0_2.index ⟨4 * (i 0).val + 3, ht⟩ (1 : Fin 3) * 64 ≤ (i 1).val
      ∧ (i 1).val < win0_2.index ⟨4 * (i 0).val + 3, ht⟩ (1 : Fin 3) * 64 + 64
    omega
  | ⟨2, _⟩ =>
    show win0_2.index ⟨4 * (i 0).val + 3, ht⟩ (2 : Fin 3) * 2048 ≤ (i 2).val
      ∧ (i 2).val < win0_2.index ⟨4 * (i 0).val + 3, ht⟩ (2 : Fin 3) * 2048 + 2048
    omega

/-- THE RESULT ARRAY of the kernel after the run: the pooled features. -/
theorem final_out (c : Dev nD) : (dats m 0 c).arrAt 2 cfg0.N = pooled (feats m c) (adj m c) :=
  (dats m 0 c).arrAt_eq_of_cover 2 (pooled (feats m c) (adj m c)) (flushed_eq m c) covered

/-- The node features the kernel finds are the first argument with its last two axes merged. -/
theorem feats_eq (c : Dev nD) :
    feats m c = shapeCast S8x64x4096 (m ((c : Thread nD τ).loc main_arg0)) shapeCasts_S8x64x64x64_S8x64x4096 := by
  show StableHlo.after hostOps0 (fun b => m (c, b)) (Proc.devRef .tc main_v0) = _
  after_results
  rfl

/-- The adjacency the kernel finds is the second argument. -/
theorem adj_eq (c : Dev nD) : adj m c = m ((c : Thread nD τ).loc main_arg1) := V_main_arg1 m c

/-- The swap of the last two axes that both programs end with. -/
abbrev swapAxes (z : S8x64x2048.Idx → EReal) : S8x2048x64.Idx → EReal :=
  transpose S8x2048x64 [0, 2, 1] z transposes_S8x64x2048_S8x2048x64_0_2_1

/-- The program's result: the kernel's array with its last two axes swapped. -/
theorem result_eq (c : Dev nD) :
    Pipeline.afterTail₀ cfgs (dats m) 0 (V0 m) [hostOps1] c main_v2 = swapAxes (pooled (feats m c) (adj m c)) := by
  unfold Pipeline.afterTail₀
  show StableHlo.after hostOps1 _ (Proc.devRef .tc main_v2) = _
  after_results
  refine congrArg swapAxes ?_
  exact (Pipeline.withArrays_arr spec0 launch0.win.arr_inj c _ _ 2).trans (final_out m c)

/-- THE RUN, READ: every weakly fair execution of the kernel's program ends with its result at the pooled features
    of the two arguments, last two axes swapped, and with the arguments as they were. -/
theorem run : θ_run defs (onTc (τ := τ) (main (F := Ideal))) ⟨m, fun _ => 0, ρ⟩ fun r => ∀ c : Dev nD,
      r.2.mem ((c : Thread nD τ).loc main_v2)
        = swapAxes (pooled (shapeCast S8x64x4096 (m ((c : Thread nD τ).loc main_arg0)) shapeCasts_S8x64x64x64_S8x64x4096)
            (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans
        ((result_eq m c).trans (by rw [feats_eq, adj_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference, entry by entry.

  Before its final swap of axes the reference holds, at batch `b`, channel `c` and knowledge-graph node `m`, the
  batched product ∑ₙ X[b, c, n] · A[b, n, m] divided by the degree 0 + ∑ₙ A[b, n, m] clamped below by one and spread
  over the channels: the function `pooled` of the reshaped features and the adjacency.
-/
import proofs.«142397_j57664230916656_2_alg».proof.Proof.Gen.ReferenceIdeal.Read
import proofs.«142397_j57664230916656_2_alg».proof.Proof.Spec

noncomputable section

namespace Cert.ReferenceIdeal.RefValue

open Idealize.ShloMosaic Idealize.ShloMosaic.TcCoe Idealize.ShloMosaic.ValueIdx
open Cert.ReferenceIdeal Cert.ReferenceIdeal.Read Cert.Spec

/-- The quotient the reference forms is `pooled` of the reshaped features and the adjacency. -/
theorem quotient_eq (x0 : (⟨S8x64x64x64, .f32⟩ : BufTy).Contents (Elt Ideal)) (x1 : (⟨S8x4096x2048, .f32⟩ : BufTy).Contents (Elt Ideal)) :
    val_main_v7 (F := Ideal) x0 x1 = pooled (val_main_v0 (F := Ideal) x0) x1 := by
  funext i
  obtain ⟨b, ch, j, rfl⟩ : ∃ (b : Fin 8) (ch : Fin 64) (j : Fin 2048), i = ix3 b ch j := ⟨i 0, i 1, i 2, eq_ix3 i⟩
  have el : ∀ k : Fin 4096, lidx_main_v4 (ix3 b ch j) k = ix3 b ch k := fun k =>
    funext fun a => Fin.ext (by match a with | ⟨0, _⟩ => rfl | ⟨1, _⟩ => rfl | ⟨2, _⟩ => rfl)
  have er : ∀ k : Fin 4096, ridx_main_v4 (ix3 b ch j) k = ix3 b k j := fun k =>
    funext fun a => Fin.ext (by match a with | ⟨0, _⟩ => rfl | ⟨1, _⟩ => rfl | ⟨2, _⟩ => rfl)
  have ed : ∀ k : Fin 4096, idx_main_v1 (idx_main_v5 (idx_main_v6 (ix3 b ch j))) k = ix3 b k j := fun k =>
    funext fun a => Fin.ext (by match a with | ⟨0, _⟩ => rfl | ⟨1, _⟩ => rfl | ⟨2, _⟩ => rfl)
  rw [val_main_v7_apply, val_main_v4_apply, val_main_v6_apply, val_main_v5_apply, val_main_v3_apply, val_main_v1_apply,
    val_main_v2_apply, val_main_cst_0_apply, val_main_cst_apply, pooled_apply]
  simp only [el, er, ed]
  simp only [Ideal.hostDivf_def, Ideal.maximumf_def, Ideal.ofBits_def, Ideal.ofBits_zero_f32]

end Cert.ReferenceIdeal.RefValue

end
-- ==== Proof.lean ====
/-
  Pooling scene-graph node features into knowledge-graph nodes: the kernel against its reference.

  Both programs take node features `F` of shape [8, 64, 64, 64] (batch, channel, and a 64 x 64 grid of scene-graph nodes)
  and a weighted adjacency `A` of shape [8, 4096, 2048] (batch, scene-graph node, knowledge-graph node), merge the two
  grid axes of `F` into one axis of 4096 nodes to get `X`, and return, with the last two axes swapped,

      out[b, c, m] = ( ∑ₙ X[b, c, n] · A[b, n, m] ) / max ( ∑ₙ A[b, n, m], 1 ).

  The reference computes the two sums whole.  The kernel walks each batch's 4096 nodes in four tiles of 1024, keeps the
  partial products and partial degrees in scratch memory between tiles (cleared at a batch's first tile), feeds the
  matrix unit 16-bit copies of the tiles, and divides at the batch's last tile.  On the extended reals a change of float
  format is the identity and addition is commutative and associative, so four partial sums added in order are the whole
  sum, whatever the values (no finiteness of the inputs is used): the two results are equal entry by entry.

  The three frame claims are the generated frame runs (the reference's is its generated run with the result
  dropped); the ideal pass rewrote nothing in the kernel, so there is nothing to preserve.
-/
import proofs.«142397_j57664230916656_2_alg».proof.Defs
import proofs.«142397_j57664230916656_2_alg».proof.Proof.Gen.Kernel
import proofs.«142397_j57664230916656_2_alg».proof.Proof.Gen.Kernel.Skeleton
import proofs.«142397_j57664230916656_2_alg».proof.Proof.Gen.Kernel.Launch
import proofs.«142397_j57664230916656_2_alg».proof.Proof.Gen.Kernel.Points
import proofs.«142397_j57664230916656_2_alg».proof.Proof.Gen.Kernel.Frame
import proofs.«142397_j57664230916656_2_alg».proof.Proof.Gen.KernelIdeal
import proofs.«142397_j57664230916656_2_alg».proof.Proof.Gen.KernelIdeal.Skeleton
import proofs.«142397_j57664230916656_2_alg».proof.Proof.Gen.KernelIdeal.Launch
import proofs.«142397_j57664230916656_2_alg».proof.Proof.Gen.KernelIdeal.Points
import proofs.«142397_j57664230916656_2_alg».proof.Proof.Gen.KernelIdeal.Frame
import proofs.«142397_j57664230916656_2_alg».proof.Proof.Gen.ReferenceIdeal
import proofs.«142397_j57664230916656_2_alg».proof.Proof.Gen.ReferenceIdeal.Run
import proofs.«142397_j57664230916656_2_alg».proof.Proof.Gen.ReferenceIdeal.Read
import proofs.«142397_j57664230916656_2_alg».proof.Proof.Gen.Pre_finite_inputs
import proofs.«142397_j57664230916656_2_alg».proof.Proof.KernelValue
import proofs.«142397_j57664230916656_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

/-- From the same two arrays both programs end at the pooled features with the last two axes swapped: the kernel by
    its four-tile running totals, the reference by its whole sums. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  unfold Cert.ReferenceIdeal.Read.val_main_v8
  rw [Cert.ReferenceIdeal.RefValue.quotient_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
